-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048 .f32) (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  let main_v19 : FVec F S8x2048 .f32 := Host.absf main_arg4
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S8x1024x2048 .f32) (main_arg1 : FVec F S8x8192x2048 .f32) (main_arg2 : FVec F S8x8192 .f32) (main_arg3 : FVec F S8x8192x2048 .f32) (main_arg4 : FVec F S8x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x8192x2048 .f32 := Host.absf main_arg1
  let main_cst_0 : FVec F S_ .f32 := constant S_ .f32 0x7F800000#32
  let main_v5 : FVec F S8x8192x2048 .f32 := broadcastInDim S8x8192x2048 ![] bcast_S_S8x8192x2048 main_cst_0
  let main_v6 : IVec S8x8192x2048 1 := cmpf .olt main_v4 main_v5
  let main_c_1 : IVec S_ 1 := constantI S_ 1 1#1
  let main_v7 : IVec S_ 1 := (fun x v => Host.reduce IntOp.andi x v reducesTo_S8x8192x2048_S_d0_1_2 h_S_) main_v6 main_c_1
  let main_v8 : IVec S_ 1 := andi main_v3 main_v7
  let main_v9 : FVec F S8x8192 .f32 := Host.absf main_arg2
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192x2048 .f32 := Host.absf main_arg3
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_arg4 main_v13 main_v16
-- ==== Kernel.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1x8192 : Shape := ⟨3, ![8, 1, 8192]⟩
abbrev S8x1x2048 : Shape := ⟨3, ![8, 1, 2048]⟩
abbrev S1x512x2048 : Shape := ⟨3, ![1, 512, 2048]⟩
abbrev S1x1024x2048 : Shape := ⟨3, ![1, 1024, 2048]⟩
abbrev S1x1x1024 : Shape := ⟨3, ![1, 1, 1024]⟩
abbrev S1x1x2048 : Shape := ⟨3, ![1, 1, 2048]⟩
abbrev S512x2048 : Shape := ⟨2, ![512, 2048]⟩
abbrev S1024x2048 : Shape := ⟨2, ![1024, 2048]⟩
abbrev S512x1024 : Shape := ⟨2, ![512, 1024]⟩
abbrev S1x1024 : Shape := ⟨2, ![1, 1024]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1024x2048, .bf16⟩
  | .hbm, ⟨6, _⟩ => ⟨S8x8192x2048, .bf16⟩
  | .hbm, ⟨7, _⟩ => ⟨S8x8192x2048, .bf16⟩
  | .hbm, ⟨8, _⟩ => ⟨S8x1x8192, .f32⟩
  | .hbm, ⟨9, _⟩ => ⟨S8x1x2048, .f32⟩
  | .hbm, ⟨10, _⟩ => ⟨S8x1024x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S8x8192_S8x1x8192 : S8x8192.ShapeCasts S8x1x8192
  shapeCasts_S8x2048_S8x1x2048 : S8x2048.ShapeCasts S8x1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S512x2048 : S1x2048.Broadcasts S512x2048
  shapeCasts_S512x2048_S1x512x2048 : S512x2048.ShapeCasts S1x512x2048
  dot_S512x2048_S1024x2048_S512x1024_1_1_0_0_n_n_wf : DotDims.WF S512x2048 S1024x2048 S512x1024 [1] [1] [0] [0] [] []
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x8192x2048.size a
  hwx0_1 : ∀ i : grid0.Coords, EltTy.bits .bf16 = 32 ∨ (Rect.block (s := S8x8192x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x8192.size a
  hwx0_2 : ∀ i : grid0.Coords, EltTy.bits .f32 = 32 ∨ (Rect.block (s := S8x1x8192) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x8192x2048.size a
  hwx0_3 : ∀ i : grid0.Coords, EltTy.bits .bf16 = 32 ∨ (Rect.block (s := S8x8192x2048) S1x1024x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x1024x2048.size a
  hwx0_5 : ∀ i : grid0.Coords, EltTy.bits .f32 = 32 ∨ (Rect.block (s := S8x1024x2048) S1x512x2048.size (cc0_transform_5 i) (hinb0_5 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x8192x2048 : Shape := ⟨3, ![8, 8192, 2048]⟩
abbrev S8x8192 : Shape := ⟨2, ![8, 8192]⟩
abbrev S8x2048 : Shape := ⟨2, ![8, 2048]⟩
abbrev S8x1024x8192 : Shape := ⟨3, ![8, 1024, 8192]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x8192x2048, .f32⟩
  | .hbm, ⟨2, _⟩ => ⟨S8x8192, .f32⟩
  | .hbm, ⟨3, _⟩ => ⟨S8x8192x2048, .f32⟩
  | .hbm, ⟨4, _⟩ => ⟨S8x2048, .f32⟩
  | .hbm, ⟨5, _⟩ => ⟨S8x1024x8192, .f32⟩
  | .hbm, ⟨6, _⟩ => ⟨S8x1x8192, .f32⟩
  | .hbm, ⟨7, _⟩ => ⟨S8x1024x8192, .f32⟩
  | .hbm, ⟨8, _⟩ => ⟨S8x1024x8192, .f32⟩
  | .hbm, ⟨9, _⟩ => ⟨S_, .f32⟩
  | .hbm, ⟨10, _⟩ => ⟨S8x1024x8192, .f32⟩
  | .hbm, ⟨11, _⟩ => ⟨S8x1024x8192, .f32⟩
  | .hbm, ⟨12, _⟩ => ⟨S8x1024x2048, .f32⟩
  | .hbm, ⟨13, _⟩ => ⟨S8x1x2048, .f32⟩
  | .hbm, ⟨14, _⟩ => ⟨S8x1024x2048, .f32⟩
  | .hbm, ⟨15, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x8192_S8x1x8192_0_2 : S8x8192.BroadcastsInDim S8x1x8192 (![0, 2] : Fin 2 → Fin S8x1x8192.rank)
  bcast_S8x1x8192_S8x1024x8192_0_1_2 : S8x1x8192.BroadcastsInDim S8x1024x8192 (![0, 1, 2] : Fin 3 → Fin S8x1024x8192.rank)
  bcast_S_S8x1024x8192 : S_.BroadcastsInDim S8x1024x8192 (![] : Fin 0 → Fin S8x1024x8192.rank)
  bcast_S8x2048_S8x1x2048_0_2 : S8x2048.BroadcastsInDim S8x1x2048 (![0, 2] : Fin 2 → Fin S8x1x2048.rank)
  bcast_S8x1x2048_S8x1024x2048_0_1_2 : S8x1x2048.BroadcastsInDim S8x1024x2048 (![0, 1, 2] : Fin 3 → Fin S8x1024x2048.rank)
  dot_S8x1024x2048_S8x8192x2048_S8x1024x8192_2_2_1_1_0_0_wf : DotDims.WF S8x1024x2048 S8x8192x2048 S8x1024x8192 [2] [2] [1] [1] [0] [0]
  dot_S8x1024x8192_S8x8192x2048_S8x1024x2048_2_1_1_2_0_0_wf : DotDims.WF S8x1024x8192 S8x8192x2048 S8x1024x2048 [2] [1] [1] [2] [0] [0]

variable [Facts₀]

def dot_S8x1024x2048_S8x8192x2048_S8x1024x8192_2_2_1_1_0_0 : DotDims S8x1024x2048 S8x8192x2048 S8x1024x8192 where
  lhsContracting := [2]
  rhsContracting := [2]
  lhsNonContracting := [1]
  rhsNonContracting := [1]
  lhsBatch := [0]
  rhsBatch := [0]
  wf := dot_S8x1024x2048_S8x8192x2048_S8x1024x8192_2_2_1_1_0_0_wf
def dot_S8x1024x8192_S8x8192x2048_S8x1024x2048_2_1_1_2_0_0 : DotDims S8x1024x8192 S8x8192x2048 S8x1024x2048 where
  lhsContracting := [2]
  rhsContracting := [1]
  lhsNonContracting := [1]
  rhsNonContracting := [2]
  lhsBatch := [0]
  rhsBatch := [0]
  wf := dot_S8x1024x8192_S8x8192x2048_S8x1024x2048_2_1_1_2_0_0_wf

class Facts : Prop extends Facts₀ where

variable [Facts]
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.Spec.lean ====
/-
  The expert feed-forward network, as ONE function of its five argument arrays over the extended reals.

  For expert `e`, row `c` and output column `o`:

      out e c o = (∑ h < 8192, relu (∑ m < 2048, x[e,c,m] · w1[e,h,m] + b1[e,h]) · w2[e,h,o]) + b2[e,o]

  with `relu v = max v 0` (the zero is the float word `+0.0`, the same word wherever it is written, so it is
  never evaluated here). The hidden axis `h` can be walked in 8 consecutive tiles of 1024: the sum over `h` is the
  sum over the tiles of each tile's 1024 terms. That regrouping uses only commutativity and associativity of `+`,
  which the extended reals have, infinities included; no finiteness of the entries is needed.
-/
import Idealize.ShloMosaic.PureOps.Ideal
import Idealize.ShloMosaic.Lib.ValueIdx
import proofs.«156686_j30545807409459_2_alg».proof.Proof.LibSumBlocks

noncomputable section

namespace Cert.Ffn

open Idealize.ShloMosaic Idealize.ShloMosaic.ValueIdx

/-- The activations `x` and the result: 8 experts, 1024 rows, 2048 columns. -/
abbrev SX : Shape := ⟨3, ![8, 1024, 2048]⟩
/-- Either weight array: 8 experts, 8192 hidden units, 2048 columns. -/
abbrev SW : Shape := ⟨3, ![8, 8192, 2048]⟩
/-- The first bias: per expert, one entry per hidden unit. -/
abbrev SB1 : Shape := ⟨2, ![8, 8192]⟩
/-- The second bias: per expert, one entry per output column. -/
abbrev SB2 : Shape := ⟨2, ![8, 2048]⟩

variable (x : SX.Idx → EReal) (w1 : SW.Idx → EReal) (b1 : SB1.Idx → EReal) (w2 : SW.Idx → EReal)
  (b2 : SB2.Idx → EReal)

/-- Hidden unit `h` of expert `e` on row `c`: `relu (x[e,c,:] · w1[e,h,:] + b1[e,h])`. -/
def hid (e : Fin 8) (c : Fin 1024) (h : Fin 8192) : EReal :=
  max ((∑ mm : Fin 2048, x (ix3 e c mm) * w1 (ix3 e h mm)) + b1 (ix2 e h)) (Ideal.ofBits .f32 0x00000000#32)

/-- Hidden unit `h`'s contribution to output column `o`. -/
def term (e : Fin 8) (c : Fin 1024) (o : Fin 2048) (h : Fin 8192) : EReal :=
  hid x w1 b1 e c h * w2 (ix3 e h o)

/-- The network's output entry. -/
def out (e : Fin 8) (c : Fin 1024) (o : Fin 2048) : EReal :=
  (∑ h : Fin 8192, term x w1 b1 w2 e c o h) + b2 (ix2 e o)

/-- The whole result array. -/
def G : SX.Idx → EReal := fun i => out x w1 b1 w2 b2 (i 0) (i 1) (i 2)

/-- Hidden unit `k` of tile `s` is hidden unit `1024·s + k`. -/
theorem tile_lt (s : Fin 8) (k : Fin 1024) : 1024 * s.val + k.val < 8192 := by omega

/-- Tile `s` of the hidden axis: the contributions of hidden units `1024·s … 1024·s + 1023`. -/
def tile (e : Fin 8) (c : Fin 1024) (o : Fin 2048) (s : Fin 8) : EReal :=
  ∑ k : Fin 1024, term x w1 b1 w2 e c o ⟨1024 * s.val + k.val, tile_lt s k⟩

/-- The output entry is the sum of the eight tiles, plus the bias. -/
theorem out_eq_tiles (e : Fin 8) (c : Fin 1024) (o : Fin 2048) :
    out x w1 b1 w2 b2 e c o = (∑ s : Fin 8, tile x w1 b1 w2 e c o s) + b2 (ix2 e o) := by
  unfold out tile
  exact congrArg (· + b2 (ix2 e o)) (Cert.LibSumBlocks.sum_fin_blocks 8 1024 (term x w1 b1 w2 e c o))

end Cert.Ffn

end
-- ==== Proof.Pieces.lean ====
/-
  What each control case of the kernel body leaves behind, as the body's own arithmetic.

  The body keeps a running block (the accumulator) between grid points. At the first tile of the hidden axis it zeroes
  the accumulator, reads it back and adds the tile's product; at every later tile it adds the tile's product to what
  the point before left; at the last tile it also stores the accumulator plus the second bias into the output block.
  Each store covers its buffer whole, so what a buffer holds afterwards is the last stored value.
-/
import proofs.«156686_j30545807409459_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile (neither the first nor the last): the accumulator ends at the tile's update of what it held. -/
theorem acc_B (c : Dev nD) (i : grid0.Coords) (arg3 : Memref sig .tc .vmem S1x512x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : ¬cond0_1 i)
    (x0 : Vec F S1x512x2048 .bf16) (x1 : Vec F S1x1024x2048 .bf16) (x2 : Vec F S1x1x1024 .f32) (x3 : Vec F S1x1024x2048 .bf16) (x4 : Vec F S1x1x2048 .f32) (xs0 : Vec F S512x2048 .f32) :
    sout0_B_0 c i arg3 harg3 arg4 harg4 arg5 harg5 arg6 harg6 arg7 harg7 arg8 harg8 arg9 harg9 hc0 hc1 x0 x1 x2 x3 x4 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz2]
  simp only [View.readAt_eq_ld, harg3.read_unread, harg4.read_unread, harg5.read_unread, harg6.read_unread, harg7.read_unread, harg9.read_unread, View.ld_unit_zero (S := S1x512x2048) hz3, View.ld_unit_zero (S := S1x1024x2048) hz3, View.ld_unit_zero (S := S1x1x1024) hz3, View.ld_unit_zero (S := S1x1x2048) hz3, View.ld_unit_zero (S := S512x2048) hz2]

/-- The last tile: the accumulator is updated in the same way. -/
theorem acc_C (c : Dev nD) (i : grid0.Coords) (arg3 : Memref sig .tc .vmem S1x512x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : cond0_1 i)
    (x0 : Vec F S1x512x2048 .bf16) (x1 : Vec F S1x1024x2048 .bf16) (x2 : Vec F S1x1x1024 .f32) (x3 : Vec F S1x1024x2048 .bf16) (x4 : Vec F S1x1x2048 .f32) (xs0 : Vec F S512x2048 .f32) :
    sout0_C_0 c i arg3 harg3 arg4 harg4 arg5 harg5 arg6 harg6 arg7 harg7 arg8 harg8 arg9 harg9 hc0 hc1 x0 x1 x2 x3 x4 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread, harg9.read_unread, View.ld_unit_zero (S := S1x512x2048) hz3, View.ld_unit_zero (S := S1x1024x2048) hz3, View.ld_unit_zero (S := S1x1x1024) hz3, View.ld_unit_zero (S := S1x1x2048) hz3, View.ld_unit_zero (S := S512x2048) hz2]

/-- The last tile: the output block is the updated accumulator (read back) plus the second bias. -/
theorem out_C (c : Dev nD) (i : grid0.Coords) (arg3 : Memref sig .tc .vmem S1x512x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (hc0 : ¬cond0_0 i) (hc1 : cond0_1 i)
    (x0 : Vec F S1x512x2048 .bf16) (x1 : Vec F S1x1024x2048 .bf16) (x2 : Vec F S1x1x1024 .f32) (x3 : Vec F S1x1024x2048 .bf16) (x4 : Vec F S1x1x2048 .f32) (xs0 : Vec F S512x2048 .f32) :
    out0_C_5 c i arg3 harg3 arg4 harg4 arg5 harg5 arg6 harg6 arg7 harg7 arg8 harg8 arg9 harg9 hc0 hc1 x0 x1 x2 x3 x4 xs0 = k0_pay3 (k0_pay2 x0 x1 x2 x3 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3, View.readCov_unit_zero (S := S512x2048) _ hz2]
  simp only [View.readAt_eq_ld, harg3.read_unread, harg4.read_unread, harg5.read_unread, harg6.read_unread, harg7.read_unread, harg9.read_unread, View.ld_unit_zero (S := S1x512x2048) hz3, View.ld_unit_zero (S := S1x1024x2048) hz3, View.ld_unit_zero (S := S1x1x1024) hz3, View.ld_unit_zero (S := S1x1x2048) hz3, View.ld_unit_zero (S := S512x2048) hz2]

/-- The first tile: the accumulator is zeroed, read back, and updated. -/
theorem acc_A (c : Dev nD) (i : grid0.Coords) (arg3 : Memref sig .tc .vmem S1x512x2048 .bf16) (harg3 : arg3.IsWhole) (arg4 : Memref sig .tc .vmem S1x1024x2048 .bf16) (harg4 : arg4.IsWhole) (arg5 : Memref sig .tc .vmem S1x1x1024 .f32) (harg5 : arg5.IsWhole) (arg6 : Memref sig .tc .vmem S1x1024x2048 .bf16) (harg6 : arg6.IsWhole) (arg7 : Memref sig .tc .vmem S1x1x2048 .f32) (harg7 : arg7.IsWhole) (arg8 : Memref sig .tc .vmem S1x512x2048 .f32) (harg8 : arg8.IsWhole) (arg9 : Memref sig .tc .vmem S512x2048 .f32) (harg9 : arg9.IsWhole) (hc0 : cond0_0 i) (hc1 : ¬cond0_1 i)
    (x0 : Vec F S1x512x2048 .bf16) (x1 : Vec F S1x1024x2048 .bf16) (x2 : Vec F S1x1x1024 .f32) (x3 : Vec F S1x1024x2048 .bf16) (x4 : Vec F S1x1x2048 .f32) :
    sout0_A_0 c i arg3 harg3 arg4 harg4 arg5 harg5 arg6 harg6 arg7 harg7 arg8 harg8 arg9 harg9 hc0 hc1 x0 x1 x2 x3 x4 = k0_pay2 x0 x1 x2 x3 k0_pay1 := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg7.read_unread, harg9.read_unread, View.ld_unit_zero (S := S1x512x2048) hz3, View.ld_unit_zero (S := S1x1024x2048) hz3, View.ld_unit_zero (S := S1x1x1024) hz3, View.ld_unit_zero (S := S1x1x2048) hz3, View.ld_unit_zero (S := S512x2048) hz2]

end Cert.KernelIdeal.Pieces

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Payload.lean ====
/-
  The body's arithmetic read at an index, over the extended reals.

  A tile's update of the accumulator at row `r`, column `o` adds to what it held the tile's 1024 hidden units' contributions:
  `∑ k, relu (∑ m, x[r,m] · w1[k,m] + b1[k]) · w2[k,o]` over the tile's blocks (each block carries a leading unit axis). A
  rounding to a narrower float format is the identity on the extended reals; a matrix product into the zero accumulator
  is the plain finite sum over its one contracted axis; the shape casts only drop or add the unit axis.
-/
import proofs.«156686_j30545807409459_2_alg».proof.Proof.Gen.KernelIdeal.Skeleton
import proofs.«156686_j30545807409459_2_alg».proof.Proof.LibDotSingle
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## Which operand entries meet in each product -/

/-- First product: the left operand's row is the result's row. -/
theorem d1_lhs_0 (j : S512x1024.Idx) (q : dot_S512x2048_S1024x2048_S512x1024_1_1_0_0_n_n.contr.Idx) : (dot_S512x2048_S1024x2048_S512x1024_1_1_0_0_n_n.lhsIdx j q 0).val = (j 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
/-- First product: the left operand's column is the contracted coordinate. -/
theorem d1_lhs_1 (j : S512x1024.Idx) (q : dot_S512x2048_S1024x2048_S512x1024_1_1_0_0_n_n.contr.Idx) : (dot_S512x2048_S1024x2048_S512x1024_1_1_0_0_n_n.lhsIdx j q 1).val = (q ⟨0, by decide⟩).val :=
  dot_S512x2048_S1024x2048_S512x1024_1_1_0_0_n_n.lhsIdx_val_of_single rfl j q
/-- First product: the right operand's row is the result's column. -/
theorem d1_rhs_0 (j : S512x1024.Idx) (q : dot_S512x2048_S1024x2048_S512x1024_1_1_0_0_n_n.contr.Idx) : (dot_S512x2048_S1024x2048_S512x1024_1_1_0_0_n_n.rhsIdx j q 0).val = (j 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
/-- First product: the right operand's column is the contracted coordinate. -/
theorem d1_rhs_1 (j : S512x1024.Idx) (q : dot_S512x2048_S1024x2048_S512x1024_1_1_0_0_n_n.contr.Idx) : (dot_S512x2048_S1024x2048_S512x1024_1_1_0_0_n_n.rhsIdx j q 1).val = (q ⟨0, by decide⟩).val :=
  dot_S512x2048_S1024x2048_S512x1024_1_1_0_0_n_n.rhsIdx_val_of_single rfl j q

/-- Second product: the left operand's row is the result's row. -/
theorem d2_lhs_0 (j : S512x2048.Idx) (q : dot_S512x1024_S1024x2048_S512x2048_1_0_0_1_n_n.contr.Idx) : (dot_S512x1024_S1024x2048_S512x2048_1_0_0_1_n_n.lhsIdx j q 0).val = (j 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
/-- Second product: the left operand's column is the contracted coordinate. -/
theorem d2_lhs_1 (j : S512x2048.Idx) (q : dot_S512x1024_S1024x2048_S512x2048_1_0_0_1_n_n.contr.Idx) : (dot_S512x1024_S1024x2048_S512x2048_1_0_0_1_n_n.lhsIdx j q 1).val = (q ⟨0, by decide⟩).val :=
  dot_S512x1024_S1024x2048_S512x2048_1_0_0_1_n_n.lhsIdx_val_of_single rfl j q
/-- Second product: the right operand's row is the contracted coordinate. -/
theorem d2_rhs_0 (j : S512x2048.Idx) (q : dot_S512x1024_S1024x2048_S512x2048_1_0_0_1_n_n.contr.Idx) : (dot_S512x1024_S1024x2048_S512x2048_1_0_0_1_n_n.rhsIdx j q 0).val = (q ⟨0, by decide⟩).val :=
  dot_S512x1024_S1024x2048_S512x2048_1_0_0_1_n_n.rhsIdx_val_of_single rfl j q
/-- Second product: the right operand's column is the result's column. -/
theorem d2_rhs_1 (j : S512x2048.Idx) (q : dot_S512x1024_S1024x2048_S512x2048_1_0_0_1_n_n.contr.Idx) : (dot_S512x1024_S1024x2048_S512x2048_1_0_0_1_n_n.rhsIdx j q 1).val = (j 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

/-! ## The two products as finite sums -/

/-- The first product, rows against rows: entry `(r, k)` is `∑ m, a[r,m] · b[k,m]`. -/
theorem mm1_apply (a : FVec Ideal S512x2048 .bf16) (b : FVec Ideal S1024x2048 .bf16) (r : Fin 512) (k : Fin 1024) :
    matmul dot_S512x2048_S1024x2048_S512x1024_1_1_0_0_n_n none a b (constant (F := Ideal) S512x1024 .f32 0x00000000#32) (ix2 r k)
      = ∑ mm : Fin 2048, a (ix2 r mm) * b (ix2 k mm) := by
  refine Cert.LibDotSingle.matmul_zero_apply dot_S512x2048_S1024x2048_S512x1024_1_1_0_0_n_n 2048 rfl rfl none a b (ix2 r k)
    (fun mm => ix2 r mm) (fun mm => ix2 k mm) (fun mm => ?_) (fun mm => ?_)
  · have hk := contrEquiv1_symm_val dot_S512x2048_S1024x2048_S512x1024_1_1_0_0_n_n 2048 rfl rfl mm
    funext ax; apply Fin.ext
    match ax with
    | ⟨0, _⟩ => exact d1_lhs_0 _ _
    | ⟨1, _⟩ => exact (d1_lhs_1 _ _).trans hk
  · have hk := contrEquiv1_symm_val dot_S512x2048_S1024x2048_S512x1024_1_1_0_0_n_n 2048 rfl rfl mm
    funext ax; apply Fin.ext
    match ax with
    | ⟨0, _⟩ => exact d1_rhs_0 _ _
    | ⟨1, _⟩ => exact (d1_rhs_1 _ _).trans hk

/-- The second product, rows against columns: entry `(r, o)` is `∑ k, a[r,k] · b[k,o]`. -/
theorem mm2_apply (a : FVec Ideal S512x1024 .bf16) (b : FVec Ideal S1024x2048 .bf16) (r : Fin 512) (o : Fin 2048) :
    matmul dot_S512x1024_S1024x2048_S512x2048_1_0_0_1_n_n none a b (constant (F := Ideal) S512x2048 .f32 0x00000000#32) (ix2 r o)
      = ∑ k : Fin 1024, a (ix2 r k) * b (ix2 k o) := by
  refine Cert.LibDotSingle.matmul_zero_apply dot_S512x1024_S1024x2048_S512x2048_1_0_0_1_n_n 1024 rfl rfl none a b (ix2 r o)
    (fun k => ix2 r k) (fun k => ix2 k o) (fun k => ?_) (fun k => ?_)
  · have hk := contrEquiv1_symm_val dot_S512x1024_S1024x2048_S512x2048_1_0_0_1_n_n 1024 rfl rfl k
    funext ax; apply Fin.ext
    match ax with
    | ⟨0, _⟩ => exact d2_lhs_0 _ _
    | ⟨1, _⟩ => exact (d2_lhs_1 _ _).trans hk
  · have hk := contrEquiv1_symm_val dot_S512x1024_S1024x2048_S512x2048_1_0_0_1_n_n 1024 rfl rfl k
    funext ax; apply Fin.ext
    match ax with
    | ⟨0, _⟩ => exact (d2_rhs_0 _ _).trans hk
    | ⟨1, _⟩ => exact d2_rhs_1 _ _

/-! ## The payloads -/

/-- The zeroed accumulator holds the zero word everywhere. -/
theorem pay1_apply (i : S512x2048.Idx) : k0_pay1 (F := Ideal) i = Ideal.ofBits .f32 0x00000000#32 := by
  unfold k0_pay1
  rw [shapeCast_self]
  rfl

/-- A tile's update of the accumulator at `(r, o)`: what it held plus the tile's hidden units' contributions. -/
theorem pay2_apply (x0 : Vec Ideal S1x512x2048 .bf16) (x1 : Vec Ideal S1x1024x2048 .bf16) (x2 : Vec Ideal S1x1x1024 .f32)
    (x3 : Vec Ideal S1x1024x2048 .bf16) (acc : Vec Ideal S512x2048 .f32) (r : Fin 512) (o : Fin 2048) :
    k0_pay2 (F := Ideal) x0 x1 x2 x3 acc (ix2 r o)
      = acc (ix2 r o) + ∑ k : Fin 1024,
          max ((∑ mm : Fin 2048, x0 (ix3 (0 : Fin 1) r mm) * x1 (ix3 (0 : Fin 1) k mm)) + x2 (ix3 (0 : Fin 1) (0 : Fin 1) k))
            (Ideal.ofBits .f32 0x00000000#32) * x3 (ix3 (0 : Fin 1) k o) := by
  unfold k0_pay2
  rw [shapeCast_self]
  refine (addf_apply _ _ _).trans ?_
  refine congrArg (acc (ix2 r o) + ·) ?_
  refine (mm2_apply _ _ r o).trans ?_
  refine Finset.sum_congr rfl fun k _ => ?_
  rw [shapeCast_1ab_ab_apply x3 _ k o]
  refine congrArg (· * x3 (ix3 (0 : Fin 1) k o)) ?_
  refine (truncf_apply (ψ := .bf16) (φ := .f32) _ _ (ix2 r k)).trans ?_
  refine (maximumf_apply _ _ _).trans ?_
  refine congrArg (max · (Ideal.ofBits .f32 0x00000000#32)) ?_
  refine (addf_apply _ _ _).trans ?_
  rw [mm1_apply, broadcastTo_1b_ab_apply, shapeCast_1ab_ab_apply x2 _ (0 : Fin 1) k]
  refine congrArg (· + x2 (ix3 (0 : Fin 1) (0 : Fin 1) k)) ?_
  refine Finset.sum_congr rfl fun mm _ => ?_
  rw [shapeCast_1ab_ab_apply x0 _ r mm, shapeCast_1ab_ab_apply x1 _ k mm]

/-- The output block at `(·, r, o)`: the accumulator there plus the second bias at column `o`. -/
theorem pay3_apply (v26 : Vec Ideal S512x2048 .f32) (v27 : Vec Ideal S1x1x2048 .f32) (u : Fin 1) (r : Fin 512) (o : Fin 2048) :
    k0_pay3 (F := Ideal) v26 v27 (ix3 u r o) = v26 (ix2 r o) + v27 (ix3 (0 : Fin 1) (0 : Fin 1) o) := by
  unfold k0_pay3
  rw [shapeCast_ab_1ab_apply _ _ u r o]
  refine (addf_apply _ _ _).trans ?_
  rw [broadcastTo_1b_ab_apply, shapeCast_1ab_ab_apply v27 _ (0 : Fin 1) o]

end Cert.KernelIdeal.Pay

end
-- ==== Proof.Blocks.lean ====
/-
  The blocks the body is handed at a grid point, read off the argument arrays.

  Grid point `n` (of 128, the hidden-axis tile moving fastest) is expert `n / 16`, row half `(n / 8) % 2`, tile `n % 8`.
  The activations' block holds rows `512·half … 512·half + 511` of the expert; both weights' blocks hold hidden units
  `1024·tile … 1024·tile + 1023`; the first bias's block the same hidden units; the second bias's block the expert's whole
  row. In front of the region the program only rounds three arrays to a narrower float format (the identity on the
  extended reals) and gives the two biases a unit middle axis.
-/
import proofs.«156686_j30545807409459_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The expert of grid point `n`. -/
def eOf (n : ℕ) : Fin 8 := ⟨(n / 16) % 8, Nat.mod_lt _ (by decide)⟩
/-- Row `r` of grid point `n`'s row half, as a row of the expert. -/
def rowOf (n : ℕ) (r : Fin 512) : Fin 1024 := ⟨512 * ((n / 8) % 2) + r.val, by omega⟩
/-- The hidden-axis tile of grid point `n`. -/
def tileOf (n : ℕ) : Fin 8 := ⟨n % 8, Nat.mod_lt _ (by decide)⟩
/-- Hidden unit `k` of grid point `n`'s tile, as a hidden unit of the expert. -/
def hidOf (n : ℕ) (k : Fin 1024) : Fin 8192 := ⟨1024 * (n % 8) + k.val, by omega⟩

/-- The block indices of the six windows, decided once over the grid. -/
theorem index_facts : ∀ t : Fin cfg0.N,
    (win0_0.index t (0 : Fin 3) = t.val / 16 ∧ win0_0.index t (1 : Fin 3) = (t.val / 8) % 2 ∧ win0_0.index t (2 : Fin 3) = 0)
    ∧ (win0_1.index t (0 : Fin 3) = t.val / 16 ∧ win0_1.index t (1 : Fin 3) = t.val % 8 ∧ win0_1.index t (2 : Fin 3) = 0)
    ∧ (win0_2.index t (0 : Fin 3) = t.val / 16 ∧ win0_2.index t (1 : Fin 3) = 0 ∧ win0_2.index t (2 : Fin 3) = t.val % 8)
    ∧ (win0_3.index t (0 : Fin 3) = t.val / 16 ∧ win0_3.index t (1 : Fin 3) = t.val % 8 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = (t.val / 8) % 2 ∧ win0_5.index t (2 : Fin 3) = 0) :=
  (by decide +kernel : ∀ t : Fin grid0.N, _)

/-- The rounded activations are the activations. -/
theorem V_v0 (c : Dev nD) : (V m c main_v0 : S8x1024x2048.Idx → EReal) = m ((c : Thread nD τ).loc main_arg0) := by
  have e : (V m c main_v0 : S8x1024x2048.Idx → EReal)
      = truncf (F := Ideal) .bf16 (m ((c : Thread nD τ).loc main_arg0)) Facts₀.bitsLt_bf16_f32 := by
    dsimp only [Gen.V, Gen.hostOps0]; after_results
  rw [e]; rfl

/-- The activations' block at point `t`. -/
theorem blk0_apply (c : Dev nD) (t : Fin cfg0.N) (u : Fin 1) (r : Fin 512) (mm : Fin 2048) :
    (iblk m c 0 t : Vec Ideal S1x512x2048 .bf16) (ix3 u r mm)
      = m ((c : Thread nD τ).loc main_arg0) (ix3 (eOf t.val) (rowOf t.val r) mm) := by
  have hN : t.val < 128 := lt_of_lt_of_eq t.isLt (show cfg0.N = 128 from N_0)
  obtain ⟨⟨e0, e1, e2⟩, -⟩ := index_facts t
  unfold iblk
  rw [View.read_apply]
  show V m c main_v0 _ = _
  rw [V_v0]
  refine congrArg _ ?_
  funext a; apply Fin.ext
  match a with
  | ⟨0, _⟩ => show win0_0.index t (0 : Fin 3) * 1 + 1 * u.val = (t.val / 16) % 8; omega
  | ⟨1, _⟩ => show win0_0.index t (1 : Fin 3) * 512 + 1 * r.val = 512 * ((t.val / 8) % 2) + r.val; omega
  | ⟨2, _⟩ => show win0_0.index t (2 : Fin 3) * 2048 + 1 * mm.val = mm.val; omega

/-- The rounded first weights are the first weights. -/
theorem V_v1 (c : Dev nD) : (V m c main_v1 : S8x8192x2048.Idx → EReal) = m ((c : Thread nD τ).loc main_arg1) := by
  have e : (V m c main_v1 : S8x8192x2048.Idx → EReal)
      = truncf (F := Ideal) .bf16 (m ((c : Thread nD τ).loc main_arg1)) Facts₀.bitsLt_bf16_f32 := by
    dsimp only [Gen.V, Gen.hostOps0]; after_results
  rw [e]; rfl

/-- The rounded second weights are the second weights. -/
theorem V_v2 (c : Dev nD) : (V m c main_v2 : S8x8192x2048.Idx → EReal) = m ((c : Thread nD τ).loc main_arg3) := by
  have e : (V m c main_v2 : S8x8192x2048.Idx → EReal)
      = truncf (F := Ideal) .bf16 (m ((c : Thread nD τ).loc main_arg3)) Facts₀.bitsLt_bf16_f32 := by
    dsimp only [Gen.V, Gen.hostOps0]; after_results
  rw [e]; rfl

/-- The first bias with a unit middle axis, at `(e, ·, h)`, is the first bias at `(e, h)`. -/
theorem V_v3_apply (c : Dev nD) (e : Fin 8) (u : Fin 1) (h : Fin 8192) :
    (V m c main_v3 : S8x1x8192.Idx → EReal) (ix3 e u h) = m ((c : Thread nD τ).loc main_arg2) (ix2 e h) := by
  have e' : (V m c main_v3 : S8x1x8192.Idx → EReal)
      = shapeCast S8x1x8192 (m ((c : Thread nD τ).loc main_arg2) : S8x8192.Idx → EReal) Facts₀.shapeCasts_S8x8192_S8x1x8192 := by
    dsimp only [Gen.V, Gen.hostOps0]; after_results <;> rfl
  rw [e']
  refine shapeCast_apply (s := S8x8192) (t := S8x1x8192) _ _ (ix3 e u h) (ix2 e h) ?_
  have hu : u.val = 0 := by omega
  rw [Shape.rowMajor_val_three, Shape.rowMajor_val_two]
  show e.val * 8192 + h.val = (e.val * 1 + u.val) * 8192 + h.val
  rw [hu]; omega

/-- The second bias with a unit middle axis, at `(e, ·, o)`, is the second bias at `(e, o)`. -/
theorem V_v4_apply (c : Dev nD) (e : Fin 8) (u : Fin 1) (o : Fin 2048) :
    (V m c main_v4 : S8x1x2048.Idx → EReal) (ix3 e u o) = m ((c : Thread nD τ).loc main_arg4) (ix2 e o) := by
  have e' : (V m c main_v4 : S8x1x2048.Idx → EReal)
      = shapeCast S8x1x2048 (m ((c : Thread nD τ).loc main_arg4) : S8x2048.Idx → EReal) Facts₀.shapeCasts_S8x2048_S8x1x2048 := by
    dsimp only [Gen.V, Gen.hostOps0]; after_results <;> rfl
  rw [e']
  refine shapeCast_apply (s := S8x2048) (t := S8x1x2048) _ _ (ix3 e u o) (ix2 e o) ?_
  have hu : u.val = 0 := by omega
  rw [Shape.rowMajor_val_three, Shape.rowMajor_val_two]
  show e.val * 2048 + o.val = (e.val * 1 + u.val) * 2048 + o.val
  rw [hu]; omega

/-- The first weights' block at point `t`: the tile's hidden units. -/
theorem blk1_apply (c : Dev nD) (t : Fin cfg0.N) (u : Fin 1) (k : Fin 1024) (mm : Fin 2048) :
    (iblk m c 1 t : Vec Ideal S1x1024x2048 .bf16) (ix3 u k mm)
      = m ((c : Thread nD τ).loc main_arg1) (ix3 (eOf t.val) (hidOf t.val k) mm) := by
  have hN : t.val < 128 := lt_of_lt_of_eq t.isLt (show cfg0.N = 128 from N_0)
  obtain ⟨-, ⟨e0, e1, e2⟩, -⟩ := index_facts t
  unfold iblk
  rw [View.read_apply]
  show V m c main_v1 _ = _
  rw [V_v1]
  refine congrArg _ ?_
  funext a; apply Fin.ext
  match a with
  | ⟨0, _⟩ => show win0_1.index t (0 : Fin 3) * 1 + 1 * u.val = (t.val / 16) % 8; omega
  | ⟨1, _⟩ => show win0_1.index t (1 : Fin 3) * 1024 + 1 * k.val = 1024 * (t.val % 8) + k.val; omega
  | ⟨2, _⟩ => show win0_1.index t (2 : Fin 3) * 2048 + 1 * mm.val = mm.val; omega

/-- The second weights' block at point `t`: the tile's hidden units. -/
theorem blk3_apply (c : Dev nD) (t : Fin cfg0.N) (u : Fin 1) (k : Fin 1024) (o : Fin 2048) :
    (iblk m c 3 t : Vec Ideal S1x1024x2048 .bf16) (ix3 u k o)
      = m ((c : Thread nD τ).loc main_arg3) (ix3 (eOf t.val) (hidOf t.val k) o) := by
  have hN : t.val < 128 := lt_of_lt_of_eq t.isLt (show cfg0.N = 128 from N_0)
  obtain ⟨-, -, -, ⟨e0, e1, e2⟩, -⟩ := index_facts t
  unfold iblk
  rw [View.read_apply]
  show V m c main_v2 _ = _
  rw [V_v2]
  refine congrArg _ ?_
  funext a; apply Fin.ext
  match a with
  | ⟨0, _⟩ => show win0_3.index t (0 : Fin 3) * 1 + 1 * u.val = (t.val / 16) % 8; omega
  | ⟨1, _⟩ => show win0_3.index t (1 : Fin 3) * 1024 + 1 * k.val = 1024 * (t.val % 8) + k.val; omega
  | ⟨2, _⟩ => show win0_3.index t (2 : Fin 3) * 2048 + 1 * o.val = o.val; omega

/-- The first bias's block at point `t`: the tile's hidden units. -/
theorem blk2_apply (c : Dev nD) (t : Fin cfg0.N) (u u' : Fin 1) (k : Fin 1024) :
    (iblk m c 2 t : Vec Ideal S1x1x1024 .f32) (ix3 u u' k)
      = m ((c : Thread nD τ).loc main_arg2) (ix2 (eOf t.val) (hidOf t.val k)) := by
  have hN : t.val < 128 := lt_of_lt_of_eq t.isLt (show cfg0.N = 128 from N_0)
  obtain ⟨-, -, ⟨e0, e1, e2⟩, -⟩ := index_facts t
  unfold iblk
  rw [View.read_apply]
  show V m c main_v3 _ = _
  rw [← V_v3_apply m c (eOf t.val) (0 : Fin 1) (hidOf t.val k)]
  refine congrArg _ ?_
  funext a; apply Fin.ext
  match a with
  | ⟨0, _⟩ => show win0_2.index t (0 : Fin 3) * 1 + 1 * u.val = (t.val / 16) % 8; omega
  | ⟨1, _⟩ => show win0_2.index t (1 : Fin 3) * 1 + 1 * u'.val = 0; omega
  | ⟨2, _⟩ => show win0_2.index t (2 : Fin 3) * 1024 + 1 * k.val = 1024 * (t.val % 8) + k.val; omega

/-- The second bias's block at point `t`: the expert's row. -/
theorem blk4_apply (c : Dev nD) (t : Fin cfg0.N) (u u' : Fin 1) (o : Fin 2048) :
    (iblk m c 4 t : Vec Ideal S1x1x2048 .f32) (ix3 u u' o)
      = m ((c : Thread nD τ).loc main_arg4) (ix2 (eOf t.val) o) := by
  have hN : t.val < 128 := lt_of_lt_of_eq t.isLt (show cfg0.N = 128 from N_0)
  obtain ⟨-, -, -, -, ⟨e0, e1, e2⟩, -⟩ := index_facts t
  unfold iblk
  rw [View.read_apply]
  show V m c main_v4 _ = _
  rw [← V_v4_apply m c (eOf t.val) (0 : Fin 1) o]
  refine congrArg _ ?_
  funext a; apply Fin.ext
  match a with
  | ⟨0, _⟩ => show win0_4.index t (0 : Fin 3) * 1 + 1 * u.val = (t.val / 16) % 8; omega
  | ⟨1, _⟩ => show win0_4.index t (1 : Fin 3) * 1 + 1 * u'.val = 0; omega
  | ⟨2, _⟩ => show win0_4.index t (2 : Fin 3) * 2048 + 1 * o.val = o.val; omega

end Cert.KernelIdeal.Blocks

end
-- ==== Proof.Fold.lean ====
/-
  The kernel's result array is the network's function of the argument arrays.

  Within one run of eight consecutive grid points (one expert, one half of the rows) the accumulator starts at zero
  and each point adds its tile of the hidden axis, so after the run's last point it holds the sum of the eight tiles;
  that point stores the accumulator plus the second bias into the output block, which is written back to rows
  `512·half … 512·half + 511` of the expert. The sixteen such blocks tile the result array, and the eight tiles
  make up the whole hidden axis, so every entry of the result is the network's output entry.
-/
import proofs.«156686_j30545807409459_2_alg».proof.Proof.Gen.KernelIdeal.Value
import proofs.«156686_j30545807409459_2_alg».proof.Proof.Spec
import proofs.«156686_j30545807409459_2_alg».proof.Proof.Pieces
import proofs.«156686_j30545807409459_2_alg».proof.Proof.Payload
import proofs.«156686_j30545807409459_2_alg».proof.Proof.Blocks

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem
open Cert.KernelIdeal.Blocks (eOf rowOf tileOf hidOf)

variable (m : (ℓ : Loc nD τ sig) → Buf (Elt Ideal) ℓ)

/-! ## What a point leaves in the accumulator, as the body's arithmetic -/

/-- At the first point of a run the accumulator ends at the tile's update of the zero block. -/
theorem sc_reset (c : Dev nD) (n : ℕ) (hb : n < cfg0.N) (h0 : n % 8 = 0) (acc : Vec Ideal S512x2048 .f32) :
    Value.scAt0_0 m c n hb acc
      = k0_pay2 (F := Ideal) (iblk m c 0 ⟨n, hb⟩) (iblk m c 1 ⟨n, hb⟩) (iblk m c 2 ⟨n, hb⟩) (iblk m c 3 ⟨n, hb⟩) (k0_pay1 (F := Ideal)) := by
  have h1 : ¬n % 8 = 7 := by omega
  unfold Value.scAt0_0
  rw [dif_pos h0, dif_neg h1]
  exact Pieces.acc_A (F := Ideal) c _ _ _ _ _ _ _ _ _ _ _ _ _ _ _ _ _ (iblk m c 0 ⟨n, hb⟩) (iblk m c 1 ⟨n, hb⟩) (iblk m c 2 ⟨n, hb⟩) (iblk m c 3 ⟨n, hb⟩) (iblk m c 4 ⟨n, hb⟩)

/-- At every later point of a run the accumulator ends at the tile's update of what the point before left. -/
theorem sc_step (c : Dev nD) (n : ℕ) (hb : n < cfg0.N) (h0 : ¬n % 8 = 0) (acc : Vec Ideal S512x2048 .f32) :
    Value.scAt0_0 m c n hb acc
      = k0_pay2 (F := Ideal) (iblk m c 0 ⟨n, hb⟩) (iblk m c 1 ⟨n, hb⟩) (iblk m c 2 ⟨n, hb⟩) (iblk m c 3 ⟨n, hb⟩) acc := by
  unfold Value.scAt0_0
  rw [dif_neg h0]
  by_cases h1 : n % 8 = 7
  · rw [dif_pos h1]
    exact Pieces.acc_C (F := Ideal) c _ _ _ _ _ _ _ _ _ _ _ _ _ _ _ _ _ (iblk m c 0 ⟨n, hb⟩) (iblk m c 1 ⟨n, hb⟩) (iblk m c 2 ⟨n, hb⟩) (iblk m c 3 ⟨n, hb⟩) (iblk m c 4 ⟨n, hb⟩) acc
  · rw [dif_neg h1]
    exact Pieces.acc_B (F := Ideal) c _ _ _ _ _ _ _ _ _ _ _ _ _ _ _ _ _ (iblk m c 0 ⟨n, hb⟩) (iblk m c 1 ⟨n, hb⟩) (iblk m c 2 ⟨n, hb⟩) (iblk m c 3 ⟨n, hb⟩) (iblk m c 4 ⟨n, hb⟩) acc

/-! ## One tile's update, read off the argument arrays -/

/-- The argument arrays on core `c`, as the network's function takes them. -/
abbrev argX (c : Dev nD) : Cert.Ffn.SX.Idx → EReal := m ((c : Thread nD τ).loc main_arg0)
abbrev argW1 (c : Dev nD) : Cert.Ffn.SW.Idx → EReal := m ((c : Thread nD τ).loc main_arg1)
abbrev argB1 (c : Dev nD) : Cert.Ffn.SB1.Idx → EReal := m ((c : Thread nD τ).loc main_arg2)
abbrev argW2 (c : Dev nD) : Cert.Ffn.SW.Idx → EReal := m ((c : Thread nD τ).loc main_arg3)
abbrev argB2 (c : Dev nD) : Cert.Ffn.SB2.Idx → EReal := m ((c : Thread nD τ).loc main_arg4)

/-- What grid point `n` adds to the accumulator at `(r, o)`: its tile of the hidden axis, for its expert, at row `r` of
    its row half and output column `o`. -/
def addend (c : Dev nD) (n : ℕ) : S512x2048.Idx → EReal := fun i =>
  Cert.Ffn.tile (argX m c) (argW1 m c) (argB1 m c) (argW2 m c) (eOf n) (rowOf n (i 0)) (i 1) (tileOf n)

/-- The tile's update at point `t` adds the point's addend to what the accumulator held. -/
theorem update_apply (c : Dev nD) (t : Fin cfg0.N) (acc : Vec Ideal S512x2048 .f32) (i : S512x2048.Idx) :
    k0_pay2 (F := Ideal) (iblk m c 0 t) (iblk m c 1 t) (iblk m c 2 t) (iblk m c 3 t) acc i = acc i + addend m c t.val i := by
  obtain ⟨r, o, rfl⟩ : ∃ (r : Fin 512) (o : Fin 2048), i = ix2 r o := ⟨i 0, i 1, eq_ix2 i⟩
  refine (Pay.pay2_apply (iblk m c 0 t) (iblk m c 1 t) (iblk m c 2 t) (iblk m c 3 t) acc r o).trans ?_
  refine congrArg (acc (ix2 r o) + ·) ?_
  show _ = Cert.Ffn.tile (argX m c) (argW1 m c) (argB1 m c) (argW2 m c) (eOf t.val) (rowOf t.val r) o (tileOf t.val)
  unfold Cert.Ffn.tile Cert.Ffn.term Cert.Ffn.hid
  refine Finset.sum_congr rfl fun k _ => ?_
  rw [Blocks.blk3_apply m c t (0 : Fin 1) k o, Blocks.blk2_apply m c t (0 : Fin 1) (0 : Fin 1) k]
  simp only [Blocks.blk0_apply m c t, Blocks.blk1_apply m c t]
  rfl

/-! ## The accumulator after a run's last point -/

/-- After the last point of a run of eight the accumulator holds the sum of the run's eight addends (the zero it
    started from contributes nothing). -/
theorem fold_apply (c : Dev nD) (t : Fin cfg0.N) (h7 : t.val % 8 = 7) (i : S512x2048.Idx) :
    (outsAt0 m c t.val t.isLt).2 i = ∑ s ∈ Finset.range (7 + 1), addend m c (8 * (t.val / 8) + s) i := by
  have hN : cfg0.N = 128 := N_0
  have ht := t.isLt
  have ha : ∀ (h : 8 * (t.val / 8) < cfg0.N) (i : S512x2048.Idx),
      Value.scAt0_0 m c (8 * (t.val / 8)) h (VS0_0.read (Elt Ideal) VS0_0.junk) i
        = Ideal.ofBits .f32 0x00000000#32 + addend m c (8 * (t.val / 8)) i := by
    intro h i
    rw [sc_reset m c _ h (by omega)]
    exact (update_apply m c ⟨_, h⟩ _ i).trans (congrArg (· + addend m c (8 * (t.val / 8)) i) (Pay.pay1_apply i))
  have hg : ∀ (n : ℕ) (h : n < cfg0.N) (acc : S512x2048.Idx → EReal) (i : S512x2048.Idx),
      8 * (t.val / 8) < n → n ≤ 8 * (t.val / 8) + 7 → Value.scAt0_0 m c n h acc i = acc i + addend m c n i := by
    intro n h acc i hlo hhi
    rw [sc_step m c n h (by omega) acc]
    exact update_apply m c ⟨n, h⟩ acc i
  have key := Pipeline.accAt_add_apply (N := cfg0.N)
    (fun n h => Value.scAt0_0 m c n h (VS0_0.read (Elt Ideal) VS0_0.junk)) (Value.scAt0_0 m c)
    (fun _ => Ideal.ofBits .f32 0x00000000#32) (addend m c) (8 * (t.val / 8)) 7 ha hg (t.val % 8) (by omega)
    (by omega) i
  rw [Value.soutsAt0_0_eq m c t, key, h7, Ideal.ofBits_zero_f32, zero_add]

/-! ## What a run's last point writes back -/

/-- The result array as the network's function of core `c`'s argument arrays. -/
abbrev result (c : Dev nD) : Buf (Elt Ideal) ((c : Thread nD τ).loc main_v5) :=
  Cert.Ffn.G (argX m c) (argW1 m c) (argB1 m c) (argW2 m c) (argB2 m c)

/-- The block a run's last point writes back is that block of the network's result: rows `512·half …` of the run's
    expert, each entry the sum of the eight tiles plus the second bias. -/
theorem flushed_eq (c : Dev nD) (t : Fin cfg0.N) (hf : (cfg0.win 5).flush t = true) :
    (dats m 0 c).flushed 5 t = ((cfg0.win 5).blk t).view.read (Elt Ideal) (result m c) := by
  have hN : cfg0.N = 128 := N_0
  have ht := t.isLt
  have h7 : t.val % 8 = 7 := (flush0_5 t).mp hf
  have h0 : ¬t.val % 8 = 0 := by omega
  obtain ⟨-, -, -, -, -, ⟨e0, e1, e2⟩⟩ := Blocks.index_facts t
  have hacc : (outsAt0 m c t.val t.isLt).2
      = k0_pay2 (F := Ideal) (iblk m c 0 t) (iblk m c 1 t) (iblk m c 2 t) (iblk m c 3 t)
          (outsAt0 m c (t.val - 1) (Nat.lt_of_le_of_lt (Nat.sub_le _ _) t.isLt)).2 := by
    rw [outsAt0_C m c t h0 h7]
    dsimp only
    exact Pieces.acc_C (F := Ideal) c _ _ _ _ _ _ _ _ _ _ _ _ _ _ _ _ _ (iblk m c 0 t) (iblk m c 1 t) (iblk m c 2 t) (iblk m c 3 t) (iblk m c 4 t) _
  refine (Value.flushed5_C m c t h0 h7).trans ?_
  refine (congrArg ((cfg0.win 5).cut (grid0.coords t)) (Pieces.out_C (F := Ideal) c _ _ _ _ _ _ _ _ _ _ _ _ _ _ _ _ _ (iblk m c 0 t) (iblk m c 1 t) (iblk m c 2 t) (iblk m c 3 t) (iblk m c 4 t) _)).trans ?_
  rw [← hacc]
  funext y
  obtain ⟨u, r, o, rfl⟩ : ∃ (u : Fin 1) (r : Fin 512) (o : Fin 2048), y = ix3 u r o := ⟨y 0, y 1, y 2, eq_ix3 y⟩
  show k0_pay3 (F := Ideal) (outsAt0 m c t.val t.isLt).2 (iblk m c 4 t) (ix3 u r o)
    = result m c (((cfg0.win 5).blk t).view.emb (ix3 u r o))
  have hemb : ((cfg0.win 5).blk t).view.emb (ix3 u r o) = (ix3 (eOf t.val) (rowOf t.val r) o : S8x1024x2048.Idx) := by
    funext a; apply Fin.ext
    match a with
    | ⟨0, _⟩ => show win0_5.index t (0 : Fin 3) * 1 + 1 * u.val = (t.val / 16) % 8; omega
    | ⟨1, _⟩ => show win0_5.index t (1 : Fin 3) * 512 + 1 * r.val = 512 * ((t.val / 8) % 2) + r.val; omega
    | ⟨2, _⟩ => show win0_5.index t (2 : Fin 3) * 2048 + 1 * o.val = o.val; omega
  rw [hemb, Pay.pay3_apply, fold_apply m c t h7, Blocks.blk4_apply m c t (0 : Fin 1) (0 : Fin 1) o]
  show _ = Cert.Ffn.out (argX m c) (argW1 m c) (argB1 m c) (argW2 m c) (argB2 m c) (eOf t.val) (rowOf t.val r) o
  rw [Cert.Ffn.out_eq_tiles]
  refine congrArg (· + argB2 m c (ix2 (eOf t.val) o)) ?_
  rw [Finset.sum_range]
  refine Finset.sum_congr rfl fun s _ => ?_
  have hs : s.val < 8 := s.isLt
  have he : eOf (8 * (t.val / 8) + s.val) = eOf t.val :=
    Fin.ext (by show (8 * (t.val / 8) + s.val) / 16 % 8 = t.val / 16 % 8; omega)
  have hr : rowOf (8 * (t.val / 8) + s.val) r = rowOf t.val r :=
    Fin.ext (by show 512 * ((8 * (t.val / 8) + s.val) / 8 % 2) + r.val = 512 * (t.val / 8 % 2) + r.val; omega)
  have htl : tileOf (8 * (t.val / 8) + s.val) = s :=
    Fin.ext (by show (8 * (t.val / 8) + s.val) % 8 = s.val; omega)
  show Cert.Ffn.tile (argX m c) (argW1 m c) (argB1 m c) (argW2 m c) (eOf (8 * (t.val / 8) + s.val))
    (rowOf (8 * (t.val / 8) + s.val) r) o (tileOf (8 * (t.val / 8) + s.val)) = _
  rw [he, hr, htl]

/-! ## The blocks written back tile the result array -/

/-- An index is in the block a point writes back iff each coordinate is in the block's range on its axis. -/
theorem mem_blk (t : Fin cfg0.N) (i : S8x1024x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v5).slice (win0_5.rect t)).set ↔ _
  rw [View.set_slice_whole, Rect.mem_set_unit]
  exact Iff.rfl

/-- Entry `(e, c, ·)` lies in the block written back by the last point of expert `e`'s run for row half `c / 512`. -/
theorem cover (i : S8x1024x2048.Idx) :
    ∃ t : Fin cfg0.N, (cfg0.win 5).flush t = true ∧ i ∈ ((cfg0.win 5).blk t).view.set := by
  have hN : cfg0.N = 128 := N_0
  have hi0 : (i 0).val < 8 := (i 0).isLt
  have hi1 : (i 1).val < 1024 := (i 1).isLt
  have hi2 : (i 2).val < 2048 := (i 2).isLt
  obtain ⟨t, htv⟩ : ∃ t : Fin cfg0.N, t.val = 16 * (i 0).val + 8 * ((i 1).val / 512) + 7 := ⟨⟨_, by omega⟩, rfl⟩
  obtain ⟨-, -, -, -, -, ⟨e0, e1, e2⟩⟩ := Blocks.index_facts t
  refine ⟨t, (flush0_5 t).mpr (by omega), ?_⟩
  rw [mem_blk]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-! ## The result array, and the run -/

/-- After the run the result array holds the network's function of the argument arrays. -/
theorem final (c : Dev nD) : (dats m 0 c).arrAt 5 cfg0.N = result m c :=
  (dats m 0 c).arrAt_eq_of_cover 5 (result m c) (flushed_eq m c) cover

/-- Every weakly fair execution of the idealized kernel's program terminates with the result array at the network's
    function of the arguments, and the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Fold

end
-- ==== Proof.RefIsSpec.lean ====
/-
  The reference program computes the network's function.

  Read one operation at a time at an index `(e, c, o)`: the second batched product is the sum over the 8192 hidden
  units of the activated first product times the second weights; the first batched product is the sum over the 2048
  input columns; each bias is broadcast along the rows; the activation is the maximum with the zero word.
-/
import proofs.«156686_j30545807409459_2_alg».proof.Proof.Gen.ReferenceIdeal.Read
import proofs.«156686_j30545807409459_2_alg».proof.Proof.Spec

noncomputable section

namespace Cert.ReferenceIdeal.RefValue

open Cert.ReferenceIdeal Cert.ReferenceIdeal.Read Idealize.ShloMosaic Idealize.ShloMosaic.ValueIdx

/-- The reference's last stage is the network's function of the five arguments. -/
theorem ref_eq (x0 : S8x1024x2048.Idx → EReal) (x1 : S8x8192x2048.Idx → EReal) (x2 : S8x8192.Idx → EReal)
    (x3 : S8x8192x2048.Idx → EReal) (x4 : S8x2048.Idx → EReal) :
    val_main_v8 (F := Ideal) x0 x1 x2 x3 x4 = Cert.Ffn.G x0 x1 x2 x3 x4 := by
  funext i
  obtain ⟨e, c, o, rfl⟩ : ∃ (e : Fin 8) (c : Fin 1024) (o : Fin 2048), i = ix3 e c o := ⟨i 0, i 1, i 2, eq_ix3 i⟩
  have i6 : idx_main_v6 (idx_main_v7 (ix3 e c o)) = ix2 e o :=
    funext fun a => Fin.ext (by match a with | ⟨0, _⟩ => rfl | ⟨1, _⟩ => rfl)
  have il : ∀ h : Fin 8192, lidx_main_v5 (ix3 e c o) h = ix3 e c h := fun h =>
    funext fun a => Fin.ext (by match a with | ⟨0, _⟩ => rfl | ⟨1, _⟩ => rfl | ⟨2, _⟩ => rfl)
  have ir : ∀ h : Fin 8192, ridx_main_v5 (ix3 e c o) h = ix3 e h o := fun h =>
    funext fun a => Fin.ext (by match a with | ⟨0, _⟩ => rfl | ⟨1, _⟩ => rfl | ⟨2, _⟩ => rfl)
  have jl : ∀ (h : Fin 8192) (k : Fin 2048), lidx_main_v0 (ix3 e c h) k = ix3 e c k := fun h k =>
    funext fun a => Fin.ext (by match a with | ⟨0, _⟩ => rfl | ⟨1, _⟩ => rfl | ⟨2, _⟩ => rfl)
  have jr : ∀ (h : Fin 8192) (k : Fin 2048), ridx_main_v0 (ix3 e c h) k = ix3 e h k := fun h k =>
    funext fun a => Fin.ext (by match a with | ⟨0, _⟩ => rfl | ⟨1, _⟩ => rfl | ⟨2, _⟩ => rfl)
  have jb : ∀ h : Fin 8192, idx_main_v1 (idx_main_v2 (ix3 e c h)) = ix2 e h := fun h =>
    funext fun a => Fin.ext (by match a with | ⟨0, _⟩ => rfl | ⟨1, _⟩ => rfl)
  rw [val_main_v8_apply, val_main_v5_apply, val_main_v7_apply, val_main_v6_apply, i6]
  show (∑ h : Fin 8192, val_main_v4 (F := Ideal) x0 x1 x2 (lidx_main_v5 (ix3 e c o) h) * x3 (ridx_main_v5 (ix3 e c o) h))
      + x4 (ix2 e o) = Cert.Ffn.out x0 x1 x2 x3 x4 e c o
  unfold Cert.Ffn.out Cert.Ffn.term Cert.Ffn.hid
  refine congrArg (· + x4 (ix2 e o)) ?_
  refine Finset.sum_congr rfl fun h _ => ?_
  rw [il h, ir h, val_main_v4_apply, val_main_v3_apply, val_main_v0_apply, val_main_v2_apply, val_main_v1_apply,
    val_main_call0_v0_apply, val_main_call0_cst_apply, jb h]
  simp only [jl h, jr h]
  rfl

end Cert.ReferenceIdeal.RefValue

end
-- ==== Proof.lean ====
/-
  A grouped expert feed-forward network: for each of 8 experts, `y = relu (x · w1ᵀ + b1) · w2 + b2` with 1024 rows,
  2048 input columns, 8192 hidden units and 2048 output columns.

  The kernel walks a grid of 8 experts × 2 row halves × 8 tiles of the hidden axis. At each point it forms the tile's
  1024 hidden units for its 512 rows, multiplies them into the tile's rows of the second weights, and adds the product
  to an accumulator that it zeroes at the first tile; at the last tile it stores the accumulator plus the second bias.
  The reference computes the two batched products whole. Over the extended reals a rounding to a narrower float format
  is the identity and every product is the exact finite sum, so both programs compute, entry by entry,

      (∑ h < 8192, max (∑ m < 2048, x[e,c,m] · w1[e,h,m] + b1[e,h]) 0 · w2[e,h,o]) + b2[e,o],

  the kernel with the sum over `h` taken as eight consecutive blocks of 1024 terms. Regrouping a finite sum needs only
  commutativity and associativity of `+`, which hold of the extended reals with their infinities, so the inputs'
  finiteness is never used. The idealization rewrote nothing, so `preserves` has no conjunct.
-/
import proofs.«156686_j30545807409459_2_alg».proof.Defs
import proofs.«156686_j30545807409459_2_alg».proof.Proof.Gen.Kernel
import proofs.«156686_j30545807409459_2_alg».proof.Proof.Gen.Kernel.Skeleton
import proofs.«156686_j30545807409459_2_alg».proof.Proof.Gen.Kernel.Launch
import proofs.«156686_j30545807409459_2_alg».proof.Proof.Gen.Kernel.Points
import proofs.«156686_j30545807409459_2_alg».proof.Proof.Gen.Kernel.Frame
import proofs.«156686_j30545807409459_2_alg».proof.Proof.Gen.KernelIdeal
import proofs.«156686_j30545807409459_2_alg».proof.Proof.Gen.KernelIdeal.Skeleton
import proofs.«156686_j30545807409459_2_alg».proof.Proof.Gen.KernelIdeal.Launch
import proofs.«156686_j30545807409459_2_alg».proof.Proof.Gen.KernelIdeal.Points
import proofs.«156686_j30545807409459_2_alg».proof.Proof.Gen.KernelIdeal.Frame
import proofs.«156686_j30545807409459_2_alg».proof.Proof.Gen.ReferenceIdeal
import proofs.«156686_j30545807409459_2_alg».proof.Proof.Gen.KernelIdeal.Value
import proofs.«156686_j30545807409459_2_alg».proof.Proof.Gen.ReferenceIdeal.Run
import proofs.«156686_j30545807409459_2_alg».proof.Proof.Gen.ReferenceIdeal.Read
import proofs.«156686_j30545807409459_2_alg».proof.Proof.Gen.Pre_finite_inputs
import proofs.«156686_j30545807409459_2_alg».proof.Proof.Fold
import proofs.«156686_j30545807409459_2_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the network's function of those arguments. -/
theorem algebraic : Cert.algebraic_KernelIdeal_ReferenceIdeal := by
  intro m ρ m' ρ' _ hagree
  refine ⟨fun c => Cert.KernelIdeal.Fold.result m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
